-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x2 : Shape := ⟨3, ![8, 2048, 2]⟩
abbrev S1x1024x2048 : Shape := ⟨3, ![1, 1024, 2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x2 : S_.BroadcastsInDim S8x2048x2 (![] : Fin 0 → Fin S8x2048x2.rank)
  reducesTo_S8x2048x2_S_d0_1_2 : S8x2048x2.ReducesTo [0, 1, 2] S_
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn_part1 {F : FTy → Type} [FloatOps F] (main_arg4 : FVec F S1x1024x2048 .f32) (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  let main_v19 : FVec F S1x1024x2048 .f32 := Host.absf main_arg4
  let main_cst_6 : FVec F S_ .f32 := constant S_ .f32 0x7F800000#32
  let main_v20 : FVec F S1x1024x2048 .f32 := broadcastInDim S1x1024x2048 ![] bcast_S_S1x1024x2048 main_cst_6
  let main_v21 : IVec S1x1024x2048 1 := cmpf .olt main_v19 main_v20
  let main_c_7 : IVec S_ 1 := constantI S_ 1 1#1
  let main_v22 : IVec S_ 1 := (fun x v => Host.reduce IntOp.andi x v reducesTo_S1x1024x2048_S_d0_1_2 h_S_) main_v21 main_c_7
  let main_v23 : IVec S_ 1 := andi main_v18 main_v22
  main_v23

def fn {F : FTy → Type} [FloatOps F] (main_arg0 : FVec F S8x2048x1024 .f32) (main_arg1 : FVec F S8x2048x1024 .f32) (main_arg2 : FVec F S8x2048x2 .f32) (main_arg3 : FVec F S8x2048x1024 .f32) (main_arg4 : FVec F S1x1024x2048 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x2 .f32 := Host.absf main_arg2
  let main_cst_2 : FVec F S_ .f32 := constant S_ .f32 0x7F800000#32
  let main_v10 : FVec F S8x2048x2 .f32 := broadcastInDim S8x2048x2 ![] bcast_S_S8x2048x2 main_cst_2
  let main_v11 : IVec S8x2048x2 1 := cmpf .olt main_v9 main_v10
  let main_c_3 : IVec S_ 1 := constantI S_ 1 1#1
  let main_v12 : IVec S_ 1 := (fun x v => Host.reduce IntOp.andi x v reducesTo_S8x2048x2_S_d0_1_2 h_S_) main_v11 main_c_3
  let main_v13 : IVec S_ 1 := andi main_v8 main_v12
  let main_v14 : FVec F S8x2048x1024 .f32 := Host.absf main_arg3
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_arg4 main_v13 main_v16
-- ==== Kernel.lean ====
abbrev S8x2048x1024 : Shape := ⟨3, ![8, 2048, 1024]⟩
abbrev S8x2048x2 : Shape := ⟨3, ![8, 2048, 2]⟩
abbrev S1x1024x2048 : Shape := ⟨3, ![1, 1024, 2048]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2, .f32⟩
  | .hbm, ⟨3, _⟩ => ⟨S8x2048x1024, .f32⟩
  | .hbm, ⟨4, _⟩ => ⟨S1x1024x2048, .f32⟩
  | .hbm, ⟨5, _⟩ => ⟨S8x2048x1024, .bf16⟩
  | .hbm, ⟨6, _⟩ => ⟨S8x2048x1024, .bf16⟩
  | .hbm, ⟨7, _⟩ => ⟨S8x2048x1024, .bf16⟩
  | .hbm, ⟨8, _⟩ => ⟨S8x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .f32⟩
  | .local _ .vmem, ⟨7, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .bf16 = 32 ∨ (Rect.block (s := S8x2048x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .bf16 = 32 ∨ (Rect.block (s := S8x2048x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x2048x1024.size a
  hwx0_2 : ∀ i : grid0.Coords, EltTy.bits .bf16 = 32 ∨ (Rect.block (s := S8x2048x1024) S1x512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x2048x1024.size a
  hwx0_3 : ∀ i : grid0.Coords, EltTy.bits .f32 = 32 ∨ (Rect.block (s := S8x2048x1024) S1x1024x1024.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2 : Shape := ⟨3, ![8, 2048, 2]⟩
abbrev S1x1024x2048 : Shape := ⟨3, ![1, 1024, 2048]⟩
abbrev S8x2048x2048 : Shape := ⟨3, ![8, 2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2, .f32⟩
  | .hbm, ⟨3, _⟩ => ⟨S8x2048x1024, .f32⟩
  | .hbm, ⟨4, _⟩ => ⟨S1x1024x2048, .f32⟩
  | .hbm, ⟨5, _⟩ => ⟨S8x2048x2048, .f32⟩
  | .hbm, ⟨6, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩

abbrev nD : Nat := 1
abbrev τ : Topo := Topo.v7x

variable {F : FTy → Type} [FloatOps F]

class Facts₀ : Prop where
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.SumTiles.lean ====
/-
  A sum over `a · b` consecutive indices, cut into `a` consecutive tiles of `b` terms each.

  Addition in a commutative monoid may be regrouped freely, so the sum of the tiles' sums is the whole sum. Nothing
  here asks the terms to be finite: the extended reals under addition are a commutative monoid, and that is all a
  tiled accumulation uses.
-/
import Mathlib.Algebra.BigOperators.Fin

namespace Cert.SumTiles

/-- Tile `s` holds the indices `b · s, …, b · s + b - 1`; the tiles' sums add up to the sum over `a · b` indices. -/
theorem sum_range_tiles {β : Type*} [AddCommMonoid β] (b : ℕ) (f : ℕ → β) (a : ℕ) :
    ∑ s ∈ Finset.range a, ∑ j ∈ Finset.range b, f (b * s + j) = ∑ n ∈ Finset.range (a * b), f n := by
  induction a with
  | zero => simp
  | succ a ih =>
    rw [Finset.sum_range_succ, ih, add_mul, one_mul, Finset.sum_range_add, Nat.mul_comm b a]

/-- The same for a function on `Fin N` with `N = a · b`: index `b · s + j` of tile `s` is below `N`, and the
    guard only says so. -/
theorem sum_fin_eq_tiles {β : Type*} [AddCommMonoid β] (a b N : ℕ) (hN : a * b = N) (F : Fin N → β) :
    ∑ n : Fin N, F n
      = ∑ s ∈ Finset.range a, ∑ j : Fin b, (if h : b * s + j.val < N then F ⟨b * s + j.val, h⟩ else 0) := by
  subst hN
  have e1 : ∑ n : Fin (a * b), F n = ∑ n : Fin (a * b), (fun n : ℕ => if h : n < a * b then F ⟨n, h⟩ else 0) n.val :=
    Finset.sum_congr rfl fun n _ => by
      show F n = if h : n.val < a * b then F ⟨n.val, h⟩ else 0
      rw [dif_pos n.isLt]
  rw [e1, Fin.sum_univ_eq_sum_range (fun n : ℕ => if h : n < a * b then F ⟨n, h⟩ else 0) (a * b), ← sum_range_tiles b _ a]
  refine Finset.sum_congr rfl fun s _ => ?_
  exact (Fin.sum_univ_eq_sum_range (fun j : ℕ => if h : b * s + j < a * b then F ⟨b * s + j, h⟩ else 0) b).symm

end Cert.SumTiles
-- ==== Proof.Attend.lean ====
/-
  The function both programs compute, on the extended reals.

  For query, key and value arrays `Q`, `K`, `V` of shape 8 × 2048 × 1024 the result at `(b, r, c)` is

      Σ_n (Σ_h Q[b, r, h] · K[b, n, h]) · V[b, n, c]      (n over the 2048 keys, h over the 1024 features):

  the score of query row `r` against every key row, each score weighting that key's value row. There is no scaling
  and no normalisation of the scores. The key axis is cut into four tiles of 512 keys; `out_tiles` regroups the sum
  over the keys by tile, which only uses that addition on the extended reals is commutative and associative.
-/
import Idealize.ShloMosaic.Lib.ValueIdx
import proofs.«138958_j56736517980684_2_alg».proof.Proof.SumTiles

noncomputable section

namespace Cert.Attend

open Idealize.ShloMosaic Idealize.ShloMosaic.ValueIdx

/-- An 8 × 2048 × 1024 array of extended reals. -/
abbrev Arr : Type := (⟨3, ![8, 2048, 1024]⟩ : Shape).Idx → EReal

/-- The score of query row `r` against key row `n` of batch `b`. -/
def score (Q K : Arr) (b : Fin 8) (r n : Fin 2048) : EReal := ∑ h : Fin 1024, Q (ix3 b r h) * K (ix3 b n h)

/-- Key `n`'s share of the result at `(b, r, c)`: its score times its value row at column `c`. -/
def term (Q K V : Arr) (b : Fin 8) (r : Fin 2048) (c : Fin 1024) (n : Fin 2048) : EReal := score Q K b r n * V (ix3 b n c)

/-- The result: at each entry the sum of every key's share. -/
def out (Q K V : Arr) : Arr := fun i =>
  ∑ n : Fin 2048, term Q K V ⟨(i 0).val, (i 0).isLt⟩ ⟨(i 1).val, (i 1).isLt⟩ ⟨(i 2).val, (i 2).isLt⟩ n

theorem out_apply (Q K V : Arr) (b : Fin 8) (r : Fin 2048) (c : Fin 1024) :
    out Q K V (ix3 b r c) = ∑ n : Fin 2048, term Q K V b r c n := rfl

/-- The same sum taken tile by tile: tile `s` holds the keys `512 · s, …, 512 · s + 511`. -/
theorem out_tiles (Q K V : Arr) (b : Fin 8) (r : Fin 2048) (c : Fin 1024) :
    out Q K V (ix3 b r c)
      = ∑ s ∈ Finset.range 4, ∑ j : Fin 512,
          (if h : 512 * s + j.val < 2048 then term Q K V b r c ⟨512 * s + j.val, h⟩ else 0) := by
  rw [out_apply]
  exact Cert.SumTiles.sum_fin_eq_tiles 4 512 2048 rfl (term Q K V b r c)

end Cert.Attend

end
-- ==== Proof.RefAtIndex.lean ====
/-
  The reference, read entry by entry.

  The reference is two batched products: the scores `Q · Kᵀ` (contracting the feature axis of both operands), then
  the scores times `V` (contracting the key axis). Read at an entry `(b, r, c)` the second product is a sum over the
  2048 keys of a score times a value entry, and each score is a sum over the 1024 features: the function `Attend.out`.
-/
import proofs.«138958_j56736517980684_2_alg».proof.Proof.Gen.ReferenceIdeal.Read
import proofs.«138958_j56736517980684_2_alg».proof.Proof.Attend
import Idealize.ShloMosaic.Lib.ValueIdx
import Idealize.ShloMosaic.PureOps.Ideal.Laws

noncomputable section

namespace Cert.ReferenceIdeal.AtIndex

open Cert.ReferenceIdeal Idealize.ShloMosaic Idealize.ShloMosaic.ValueIdx

/-- The reference's result is `Attend.out` of its query, key and value arguments. -/
theorem reference_eq (x0 x1 x3 : (⟨S8x2048x1024, .f32⟩ : BufTy).Contents (Elt Ideal)) :
    (Read.val_main_v1 (F := Ideal) x0 x1 x3 : Cert.Attend.Arr) = Cert.Attend.out x0 x1 x3 := by
  funext i
  obtain ⟨b, r, c, rfl⟩ : ∃ (b : Fin 8) (r : Fin 2048) (c : Fin 1024), i = ix3 b r c := ⟨i 0, i 1, i 2, eq_ix3 i⟩
  rw [Read.val_main_v1_apply, Cert.Attend.out_apply]
  refine Finset.sum_congr rfl fun n _ => ?_
  rw [Read.val_main_v0_apply]
  unfold Cert.Attend.term Cert.Attend.score
  have eq : ∀ h : Fin 1024, Read.lidx_main_v0 (Read.lidx_main_v1 (ix3 b r c) n) h = ix3 b r h := fun h =>
    funext fun a => Fin.ext (by match a with | ⟨0, _⟩ => rfl | ⟨1, _⟩ => rfl | ⟨2, _⟩ => rfl)
  have ek : ∀ h : Fin 1024, Read.ridx_main_v0 (Read.lidx_main_v1 (ix3 b r c) n) h = ix3 b n h := fun h =>
    funext fun a => Fin.ext (by match a with | ⟨0, _⟩ => rfl | ⟨1, _⟩ => rfl | ⟨2, _⟩ => rfl)
  have ev : Read.ridx_main_v1 (ix3 b r c) n = ix3 b n c :=
    funext fun a => Fin.ext (by match a with | ⟨0, _⟩ => rfl | ⟨1, _⟩ => rfl | ⟨2, _⟩ => rfl)
  rw [ev]
  refine congrArg (· * x3 (ix3 b n c)) (Finset.sum_congr rfl fun h _ => ?_)
  rw [eq h, ek h]

end Cert.ReferenceIdeal.AtIndex

end
-- ==== Proof.TileStep.lean ====
/-
  One grid point's work on the output tile, read entry by entry on the extended reals.

  At a grid point the body holds a tile `q` of 1024 query rows, a tile `k` of 512 key rows and the matching tile `v` of
  512 value rows (each row of length 1024), and the output tile `acc` left by the point before. It forms the
  1024 × 512 score tile `s[p, j] = Σ_h q[p, h] · k[j, h]` (a product contracted over the feature axis of both
  operands, so no transpose is formed), and adds `s · v` to the output tile:

      new[p, c] = acc[p, c] + Σ_j (Σ_h q[p, h] · k[j, h]) · v[j, c].

  The change of format between the two products is the identity on the extended reals, and the leading unit axis
  of every tile is only a relabelling of indices.
-/
import proofs.«138958_j56736517980684_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## The score product: both operands contracted over their second axis -/

theorem scoreL0 (i : S1024x512.Idx) (w : dot_S1024x1024_S512x1024_S1024x512_1_1_0_0_n_n.contr.Idx) :
    (dot_S1024x1024_S512x1024_S1024x512_1_1_0_0_n_n.lhsIdx i w 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem scoreL1 (i : S1024x512.Idx) (w : dot_S1024x1024_S512x1024_S1024x512_1_1_0_0_n_n.contr.Idx) :
    (dot_S1024x1024_S512x1024_S1024x512_1_1_0_0_n_n.lhsIdx i w 1).val = (w ⟨0, by decide⟩).val :=
  dot_S1024x1024_S512x1024_S1024x512_1_1_0_0_n_n.lhsIdx_val_of_single rfl i w
theorem scoreR0 (i : S1024x512.Idx) (w : dot_S1024x1024_S512x1024_S1024x512_1_1_0_0_n_n.contr.Idx) :
    (dot_S1024x1024_S512x1024_S1024x512_1_1_0_0_n_n.rhsIdx i w 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem scoreR1 (i : S1024x512.Idx) (w : dot_S1024x1024_S512x1024_S1024x512_1_1_0_0_n_n.contr.Idx) :
    (dot_S1024x1024_S512x1024_S1024x512_1_1_0_0_n_n.rhsIdx i w 1).val = (w ⟨0, by decide⟩).val :=
  dot_S1024x1024_S512x1024_S1024x512_1_1_0_0_n_n.rhsIdx_val_of_single rfl i w

/-- The score tile at `(p, j)`: the sum over the feature axis of query row `p` times key row `j`. -/
theorem score_apply (a : FVec Ideal S1024x1024 .bf16) (b : FVec Ideal S512x1024 .bf16) (p : Fin 1024) (j : Fin 512) :
    matmul dot_S1024x1024_S512x1024_S1024x512_1_1_0_0_n_n none a b (constant (F := Ideal) S1024x512 .f32 0x00000000#32) (ix2 p j)
      = ∑ h : Fin 1024, a (ix2 p h) * b (ix2 j h) := by
  simp only [matmul]
  rw [Ideal.matmul_constant_zero_apply, ← Equiv.sum_comp (contrEquiv1 dot_S1024x1024_S512x1024_S1024x512_1_1_0_0_n_n 1024 rfl rfl).symm]
  refine Finset.sum_congr rfl fun h _ => ?_
  have hk := contrEquiv1_symm_val dot_S1024x1024_S512x1024_S1024x512_1_1_0_0_n_n 1024 rfl rfl h
  have el : dot_S1024x1024_S512x1024_S1024x512_1_1_0_0_n_n.lhsIdx (ix2 p j) ((contrEquiv1 dot_S1024x1024_S512x1024_S1024x512_1_1_0_0_n_n 1024 rfl rfl).symm h) = ix2 p h := funext fun d => Fin.ext (by
    match d with
    | ⟨0, _⟩ => exact scoreL0 _ _
    | ⟨1, _⟩ => exact (scoreL1 _ _).trans hk)
  have er : dot_S1024x1024_S512x1024_S1024x512_1_1_0_0_n_n.rhsIdx (ix2 p j) ((contrEquiv1 dot_S1024x1024_S512x1024_S1024x512_1_1_0_0_n_n 1024 rfl rfl).symm h) = ix2 j h := funext fun d => Fin.ext (by
    match d with
    | ⟨0, _⟩ => exact scoreR0 _ _
    | ⟨1, _⟩ => exact (scoreR1 _ _).trans hk)
  rw [el, er]

/-! ## The product with the value tile: the scores' key axis against the values' row axis -/

theorem mixL0 (i : S1024x1024.Idx) (w : dot_S1024x512_S512x1024_S1024x1024_1_0_0_1_n_n.contr.Idx) :
    (dot_S1024x512_S512x1024_S1024x1024_1_0_0_1_n_n.lhsIdx i w 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem mixL1 (i : S1024x1024.Idx) (w : dot_S1024x512_S512x1024_S1024x1024_1_0_0_1_n_n.contr.Idx) :
    (dot_S1024x512_S512x1024_S1024x1024_1_0_0_1_n_n.lhsIdx i w 1).val = (w ⟨0, by decide⟩).val :=
  dot_S1024x512_S512x1024_S1024x1024_1_0_0_1_n_n.lhsIdx_val_of_single rfl i w
theorem mixR0 (i : S1024x1024.Idx) (w : dot_S1024x512_S512x1024_S1024x1024_1_0_0_1_n_n.contr.Idx) :
    (dot_S1024x512_S512x1024_S1024x1024_1_0_0_1_n_n.rhsIdx i w 0).val = (w ⟨0, by decide⟩).val :=
  dot_S1024x512_S512x1024_S1024x1024_1_0_0_1_n_n.rhsIdx_val_of_single rfl i w
theorem mixR1 (i : S1024x1024.Idx) (w : dot_S1024x512_S512x1024_S1024x1024_1_0_0_1_n_n.contr.Idx) :
    (dot_S1024x512_S512x1024_S1024x1024_1_0_0_1_n_n.rhsIdx i w 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The scores times the value tile at `(p, c)`: the sum over the 512 keys of the score against key `j` times
    value row `j` at column `c`. -/
theorem mix_apply (s : FVec Ideal S1024x512 .bf16) (v : FVec Ideal S512x1024 .bf16) (p c : Fin 1024) :
    matmul dot_S1024x512_S512x1024_S1024x1024_1_0_0_1_n_n none s v (constant (F := Ideal) S1024x1024 .f32 0x00000000#32) (ix2 p c)
      = ∑ j : Fin 512, s (ix2 p j) * v (ix2 j c) := by
  simp only [matmul]
  rw [Ideal.matmul_constant_zero_apply, ← Equiv.sum_comp (contrEquiv1 dot_S1024x512_S512x1024_S1024x1024_1_0_0_1_n_n 512 rfl rfl).symm]
  refine Finset.sum_congr rfl fun j _ => ?_
  have hk := contrEquiv1_symm_val dot_S1024x512_S512x1024_S1024x1024_1_0_0_1_n_n 512 rfl rfl j
  have el : dot_S1024x512_S512x1024_S1024x1024_1_0_0_1_n_n.lhsIdx (ix2 p c) ((contrEquiv1 dot_S1024x512_S512x1024_S1024x1024_1_0_0_1_n_n 512 rfl rfl).symm j) = ix2 p j := funext fun d => Fin.ext (by
    match d with
    | ⟨0, _⟩ => exact mixL0 _ _
    | ⟨1, _⟩ => exact (mixL1 _ _).trans hk)
  have er : dot_S1024x512_S512x1024_S1024x1024_1_0_0_1_n_n.rhsIdx (ix2 p c) ((contrEquiv1 dot_S1024x512_S512x1024_S1024x1024_1_0_0_1_n_n 512 rfl rfl).symm j) = ix2 j c := funext fun d => Fin.ext (by
    match d with
    | ⟨0, _⟩ => exact (mixR0 _ _).trans hk
    | ⟨1, _⟩ => exact mixR1 _ _)
  rw [el, er]

/-! ## The body's stored tile -/

/-- What one grid point adds to output entry `(p, c)` of its tile, from the three input tiles. -/
def addend (x0 : Vec Ideal S1x1024x1024 .bf16) (x1 x2 : Vec Ideal S1x512x1024 .bf16) (p c : Fin 1024) : EReal :=
  ∑ j : Fin 512, (∑ h : Fin 1024, (x0 (ix3 (0 : Fin 1) p h) : EReal) * (x1 (ix3 (0 : Fin 1) j h) : EReal)) * (x2 (ix3 (0 : Fin 1) j c) : EReal)

/-- The tile the body stores is, entry by entry, the tile it found plus the point's addend. -/
theorem step_apply (x0 : Vec Ideal S1x1024x1024 .bf16) (x1 x2 : Vec Ideal S1x512x1024 .bf16)
    (acc : Vec Ideal S1x1024x1024 .f32) (u : Fin 1) (p c : Fin 1024) :
    (k0_pay2 (F := Ideal) x0 x1 x2 acc (ix3 u p c) : EReal) = (acc (ix3 (0 : Fin 1) p c) : EReal) + addend x0 x1 x2 p c := by
  unfold k0_pay2 addend
  refine (shapeCast_ab_1ab_apply _ _ u p c).trans ?_
  refine (addf_apply _ _ _).trans ?_
  refine congrArg₂ (· + ·) (shapeCast_1ab_ab_apply acc _ p c) ?_
  refine (mix_apply _ _ p c).trans ?_
  refine Finset.sum_congr rfl fun j _ => ?_
  refine congrArg₂ (· * ·) ?_ (shapeCast_1ab_ab_apply x2 _ j c)
  refine (truncf_apply (ψ := .bf16) (φ := .f32) _ bitsLt_bf16_f32 (ix2 p j)).trans ?_
  refine (score_apply _ _ p j).trans ?_
  refine Finset.sum_congr rfl fun h _ => ?_
  exact congrArg₂ (· * ·) (shapeCast_1ab_ab_apply x0 _ p h) (shapeCast_1ab_ab_apply x1 _ j h)

/-- The tile stored at the first point of a run is all zero before the addition. -/
theorem zero_apply (i : S1x1024x1024.Idx) : (k0_pay1 (F := Ideal) i : EReal) = 0 := by
  unfold k0_pay1
  show Ideal.ofBits .f32 0x00000000#32 = 0
  exact Ideal.ofBits_zero_f32

end Cert.KernelIdeal.Tile

end
-- ==== Proof.TileRows.lean ====
/-
  Which rows of the arguments a grid point sees.

  The 8 × 2 × 4 grid is walked in row-major order, so point `t` works on batch `t / 8`, on the query tile
  `(t / 4) % 2` (1024 rows) and on the key / value tile `t % 4` (512 rows). The three arrays the region reads are the
  query, key and value arguments after a change of float format, which is the identity on the extended reals: entry
  `(0, p, h)` of the point's query tile is the query argument at `(t / 8, 1024 · ((t / 4) % 2) + p, h)`, and entry
  `(0, j, h)` of its key (value) tile is the key (value) argument at `(t / 8, 512 · (t % 4) + j, h)`.
-/
import proofs.«138958_j56736517980684_2_alg».proof.Proof.Gen.KernelIdeal.Frame.Runs
import Idealize.ShloMosaic.Lib.ValueIdx
import Idealize.ShloMosaic.Lib.StableHlo.Run

noncomputable section

namespace Cert.KernelIdeal.Tile

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The index maps over the grid -/

theorem queryIdx : ∀ t : Fin cfg0.N, win0_0.index t (0 : Fin 3) = t.val / 8 ∧ win0_0.index t (1 : Fin 3) = t.val / 4 % 2
    ∧ win0_0.index t (2 : Fin 3) = 0 :=
  (by decide +kernel : ∀ t : Fin grid0.N, _)

theorem keyIdx : ∀ t : Fin cfg0.N, win0_1.index t (0 : Fin 3) = t.val / 8 ∧ win0_1.index t (1 : Fin 3) = t.val % 4
    ∧ win0_1.index t (2 : Fin 3) = 0 :=
  (by decide +kernel : ∀ t : Fin grid0.N, _)

theorem valueIdx : ∀ t : Fin cfg0.N, win0_2.index t (0 : Fin 3) = t.val / 8 ∧ win0_2.index t (1 : Fin 3) = t.val % 4
    ∧ win0_2.index t (2 : Fin 3) = 0 :=
  (by decide +kernel : ∀ t : Fin grid0.N, _)

/-! ## The arrays the region reads are the arguments -/

theorem entryQuery (c : Dev nD) :
    (V m c main_v0 : S8x2048x1024.Idx → EReal) = m ((c : Thread nD τ).loc main_arg0) := by
  dsimp only [Gen.V, Gen.hostOps0]; after_results; rfl

theorem entryKey (c : Dev nD) :
    (V m c main_v1 : S8x2048x1024.Idx → EReal) = m ((c : Thread nD τ).loc main_arg1) := by
  dsimp only [Gen.V, Gen.hostOps0]; after_results; rfl

theorem entryValue (c : Dev nD) :
    (V m c main_v2 : S8x2048x1024.Idx → EReal) = m ((c : Thread nD τ).loc main_arg3) := by
  dsimp only [Gen.V, Gen.hostOps0]; after_results; rfl

/-! ## A point's tiles, entry by entry -/

theorem queryTile_apply (c : Dev nD) (t : Fin cfg0.N) (p h : Fin 1024) (b : Fin 8) (r : Fin 2048)
    (hb : b.val = t.val / 8) (hr : r.val = 1024 * (t.val / 4 % 2) + p.val) :
    ((iblk m c 0 t : Vec Ideal S1x1024x1024 .bf16) (ix3 (0 : Fin 1) p h) : EReal)
      = (m ((c : Thread nD τ).loc main_arg0) (ix3 b r h) : EReal) := by
  obtain ⟨e0, e1, e2⟩ := queryIdx t
  show (V m c main_v0 (((cfg0.win 0).blk t).view.emb (ix3 (0 : Fin 1) p h)) : EReal) = _
  rw [entryQuery]
  refine congrArg _ (funext fun a => Fin.ext ?_)
  match a with
  | ⟨0, _⟩ => show win0_0.index t (0 : Fin 3) * 1 + 1 * (0 : ℕ) = b.val; omega
  | ⟨1, _⟩ => show win0_0.index t (1 : Fin 3) * 1024 + 1 * p.val = r.val; omega
  | ⟨2, _⟩ => show win0_0.index t (2 : Fin 3) * 1024 + 1 * h.val = h.val; omega

theorem keyTile_apply (c : Dev nD) (t : Fin cfg0.N) (j : Fin 512) (h : Fin 1024) (b : Fin 8) (n : Fin 2048)
    (hb : b.val = t.val / 8) (hn : n.val = 512 * (t.val % 4) + j.val) :
    ((iblk m c 1 t : Vec Ideal S1x512x1024 .bf16) (ix3 (0 : Fin 1) j h) : EReal)
      = (m ((c : Thread nD τ).loc main_arg1) (ix3 b n h) : EReal) := by
  obtain ⟨e0, e1, e2⟩ := keyIdx t
  show (V m c main_v1 (((cfg0.win 1).blk t).view.emb (ix3 (0 : Fin 1) j h)) : EReal) = _
  rw [entryKey]
  refine congrArg _ (funext fun a => Fin.ext ?_)
  match a with
  | ⟨0, _⟩ => show win0_1.index t (0 : Fin 3) * 1 + 1 * (0 : ℕ) = b.val; omega
  | ⟨1, _⟩ => show win0_1.index t (1 : Fin 3) * 512 + 1 * j.val = n.val; omega
  | ⟨2, _⟩ => show win0_1.index t (2 : Fin 3) * 1024 + 1 * h.val = h.val; omega

theorem valueTile_apply (c : Dev nD) (t : Fin cfg0.N) (j : Fin 512) (q q0 : Fin 1024) (b : Fin 8) (n : Fin 2048)
    (hb : b.val = t.val / 8) (hn : n.val = 512 * (t.val % 4) + j.val) (hq : q0.val = q.val) :
    ((iblk m c 2 t : Vec Ideal S1x512x1024 .bf16) (ix3 (0 : Fin 1) j q) : EReal)
      = (m ((c : Thread nD τ).loc main_arg3) (ix3 b n q0) : EReal) := by
  obtain ⟨e0, e1, e2⟩ := valueIdx t
  show (V m c main_v2 (((cfg0.win 2).blk t).view.emb (ix3 (0 : Fin 1) j q)) : EReal) = _
  rw [entryValue]
  refine congrArg _ (funext fun a => Fin.ext ?_)
  match a with
  | ⟨0, _⟩ => show win0_2.index t (0 : Fin 3) * 1 + 1 * (0 : ℕ) = b.val; omega
  | ⟨1, _⟩ => show win0_2.index t (1 : Fin 3) * 512 + 1 * j.val = n.val; omega
  | ⟨2, _⟩ => show win0_2.index t (2 : Fin 3) * 1024 + 1 * q.val = q0.val; omega

end Cert.KernelIdeal.Tile

end
-- ==== Proof.KernelResult.lean ====
/-
  What the kernel leaves in its result array.

  The output tile of batch `b` and query tile `μ` is visited by the four consecutive grid points
  `4 · (2 b + μ) + s`, `s = 0, 1, 2, 3`, one per key tile: the first stores zero plus its addend, each later one
  adds its addend to what the point before left, and the last one's tile is written back. So entry `(b, r, c)` of
  the result is `0 + Σ_s` of the four addends at row `r % 1024` of the tile, and the addend of key tile `s` is the sum
  over that tile's 512 keys of (score of query row `r` against the key) · (the key's value at column `c`). Regrouped
  over all 2048 keys this is `Attend.out` of the query, key and value arguments.
-/
import proofs.«138958_j56736517980684_2_alg».proof.Proof.Gen.KernelIdeal.Value
import proofs.«138958_j56736517980684_2_alg».proof.Proof.TileStep
import proofs.«138958_j56736517980684_2_alg».proof.Proof.TileRows
import proofs.«138958_j56736517980684_2_alg».proof.Proof.Attend

noncomputable section

namespace Cert.KernelIdeal.Tile

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The stored tile at any index of the tile: what was there plus the point's addend at the index's row and column. -/
theorem step_at (x0 : Vec Ideal S1x1024x1024 .bf16) (x1 x2 : Vec Ideal S1x512x1024 .bf16)
    (acc : Vec Ideal S1x1024x1024 .f32) (i : S1x1024x1024.Idx) :
    (k0_pay2 (F := Ideal) x0 x1 x2 acc i : EReal) = (acc i : EReal) + addend x0 x1 x2 (i 1) (i 2) := by
  obtain ⟨u, p, c, rfl⟩ : ∃ (u : Fin 1) (p c : Fin 1024), i = ix3 u p c := ⟨i 0, i 1, i 2, eq_ix3 i⟩
  have hu : u = 0 := Subsingleton.elim _ _
  subst hu
  exact step_apply x0 x1 x2 acc 0 p c

/-- What grid point `n` adds to its output tile, entry by entry (nothing past the grid's last point). -/
def pointAddend (c : Dev nD) (n : ℕ) (i : S1x1024x1024.Idx) : EReal :=
  if h : n < cfg0.N then addend (iblk m c 0 ⟨n, h⟩) (iblk m c 1 ⟨n, h⟩) (iblk m c 2 ⟨n, h⟩) (i 1) (i 2) else 0

/-- The tile after the four points of a run starting at point `b`: zero plus the four points' addends. -/
theorem fold_apply (c : Dev nD) (b : ℕ) (hb : b + 3 < cfg0.N) (i : S1x1024x1024.Idx) :
    (Pipeline.accAt (Value.reset3 m c) (Value.step3 m c) b 3 hb i : EReal)
      = 0 + ∑ s ∈ Finset.range (3 + 1), pointAddend m c (b + s) i :=
  Pipeline.accAt_add_apply (ι := S1x1024x1024.Idx) (β := EReal) (Value.reset3 m c) (Value.step3 m c) (fun _ => 0)
    (pointAddend m c) b 3
    (fun h i => by
      unfold Value.reset3
      refine (step_at (iblk m c 0 ⟨b, h⟩) (iblk m c 1 ⟨b, h⟩) (iblk m c 2 ⟨b, h⟩) (k0_pay1 (F := Ideal)) i).trans ?_
      unfold pointAddend
      rw [dif_pos h, zero_apply])
    (fun n h acc i _ _ => by
      unfold Value.step3
      refine (step_at (iblk m c 0 ⟨n, h⟩) (iblk m c 1 ⟨n, h⟩) (iblk m c 2 ⟨n, h⟩) acc i).trans ?_
      unfold pointAddend
      rw [dif_pos h])
    3 le_rfl hb i

/-- The addend of the point working on batch `b`, the query tile holding row `r`, and key tile `s`, at row `r`'s place
    in the tile and column `q`: the shares of that tile's 512 keys in the result at `(b, r, q)`. -/
theorem pointAddend_eq (c : Dev nD) (b : Fin 8) (r : Fin 2048) (q : Fin 1024) (s : ℕ) (hs : s < 4)
    (i : S1x1024x1024.Idx) (h1 : (i 1).val = r.val % 1024) (h2 : (i 2).val = q.val) :
    pointAddend m c (4 * (2 * b.val + r.val / 1024) + s) i
      = ∑ j : Fin 512, (if h : 512 * s + j.val < 2048 then
          Cert.Attend.term (m ((c : Thread nD τ).loc main_arg0)) (m ((c : Thread nD τ).loc main_arg1))
            (m ((c : Thread nD τ).loc main_arg3)) b r q ⟨512 * s + j.val, h⟩ else 0) := by
  have hN : cfg0.N = 64 := N_0
  have hb8 : b.val < 8 := b.isLt
  have hr : r.val < 2048 := r.isLt
  have ht : 4 * (2 * b.val + r.val / 1024) + s < cfg0.N := by rw [hN]; omega
  unfold pointAddend
  rw [dif_pos ht]
  unfold addend
  refine Finset.sum_congr rfl fun j _ => ?_
  have hj : j.val < 512 := j.isLt
  rw [dif_pos (by omega)]
  unfold Cert.Attend.term Cert.Attend.score
  refine congrArg₂ (· * ·) (Finset.sum_congr rfl fun h _ => congrArg₂ (· * ·) ?_ ?_) ?_
  · exact queryTile_apply m c ⟨_, ht⟩ (i 1) h b r (by show b.val = (4 * (2 * b.val + r.val / 1024) + s) / 8; omega)
      (by show r.val = 1024 * ((4 * (2 * b.val + r.val / 1024) + s) / 4 % 2) + (i 1).val; omega)
  · exact keyTile_apply m c ⟨_, ht⟩ j h b ⟨512 * s + j.val, by omega⟩
      (by show b.val = (4 * (2 * b.val + r.val / 1024) + s) / 8; omega)
      (by show 512 * s + j.val = 512 * ((4 * (2 * b.val + r.val / 1024) + s) % 4) + j.val; omega)
  · exact valueTile_apply m c ⟨_, ht⟩ j (i 2) q b ⟨512 * s + j.val, by omega⟩
      (by show b.val = (4 * (2 * b.val + r.val / 1024) + s) / 8; omega)
      (by show 512 * s + j.val = 512 * ((4 * (2 * b.val + r.val / 1024) + s) % 4) + j.val; omega)
      h2.symm

/-- The result array after the run is `Attend.out` of the query, key and value arguments. -/
theorem result_eq (c : Dev nD) :
    (Value.G3 m c : Cert.Attend.Arr)
      = Cert.Attend.out (m ((c : Thread nD τ).loc main_arg0)) (m ((c : Thread nD τ).loc main_arg1))
          (m ((c : Thread nD τ).loc main_arg3)) := by
  funext i
  obtain ⟨b, r, q, rfl⟩ : ∃ (b : Fin 8) (r : Fin 2048) (q : Fin 1024), i = ix3 b r q := ⟨i 0, i 1, i 2, eq_ix3 i⟩
  have hN : cfg0.N = 64 := N_0
  have hb8 : b.val < 8 := b.isLt
  have hr : r.val < 2048 := r.isLt
  have hq : q.val < 1024 := q.isLt
  have hrun : Value.run3Of (ix3 b r q) = 2 * b.val + r.val / 1024 := by
    show 2 * (b.val / 1 - 0) + 1 * (r.val / 1024 - 0) + 1 * (q.val / 1024 - 0) = _
    have : q.val / 1024 = 0 := by omega
    omega
  unfold Value.G3
  rw [dif_pos (by rw [hrun, hN]; omega)]
  refine (fold_apply m c _ _ _).trans ?_
  rw [zero_add, hrun, Cert.Attend.out_tiles]
  refine Finset.sum_congr rfl fun s hs => ?_
  exact pointAddend_eq m c b r q s (Finset.mem_range.mp hs) _ rfl
    (by show q.val % 1024 = q.val; omega)

end Cert.KernelIdeal.Tile

end
-- ==== Proof.lean ====
/-
  The kernel computes `(Q · Kᵀ) · V` batch by batch with no scaling and no normalisation: for each batch and each tile
  of 1024 query rows it walks the four tiles of 512 keys, forms the tile of scores and adds the scores times the value
  tile into the output tile, which starts from zero. The reference forms all 2048 scores of a query row at once and
  multiplies by the whole value array. On the extended reals both give, at entry `(b, r, c)`,

      Σ_n (Σ_h Q[b, r, h] · K[b, n, h]) · V[b, n, c],

  the kernel's sum being taken key tile by key tile (`Attend.out_tiles`); the changes of float format on the way into
  the products are the identity there. Regrouping a sum needs only that addition is commutative and associative, so the
  precondition (finite inputs) is not used by the value claim. The idealized kernel rewrites nothing of the kernel, so
  the preservation claim is empty.

  The frames and the kernel's result array as a fold over each run of four grid points are the generated modules'; the
  reference's two products read at an entry are the generated read-back's. Written here: one grid point's stored tile
  entry by entry (TileStep), which rows of the arguments a point's tiles are (TileRows), the fold as a sum of four
  addends and that sum as `Attend.out` (KernelResult), the reference as `Attend.out` (RefAtIndex), and the regrouping of
  a sum by tiles (SumTiles, Attend).
-/
import proofs.«138958_j56736517980684_2_alg».proof.Defs
import proofs.«138958_j56736517980684_2_alg».proof.Proof.Gen.Kernel.Frame
import proofs.«138958_j56736517980684_2_alg».proof.Proof.Gen.KernelIdeal.Value
import proofs.«138958_j56736517980684_2_alg».proof.Proof.Gen.Pre_finite_inputs
import proofs.«138958_j56736517980684_2_alg».proof.Proof.Gen.ReferenceIdeal.Run
import proofs.«138958_j56736517980684_2_alg».proof.Proof.RefAtIndex
import proofs.«138958_j56736517980684_2_alg».proof.Proof.KernelResult
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on the arguments, the kernel's result array and the reference's both end holding
    `Attend.out` of the query, key and value arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine (Cert.ReferenceIdeal.Read.val_main_v1_eq _ _ _).trans ?_
  exact (Cert.ReferenceIdeal.AtIndex.reference_eq _ _ _).trans (Cert.KernelIdeal.Tile.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
